-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x16 : Shape := ⟨2, ![4096, 16]⟩
abbrev S272x1024 : Shape := ⟨2, ![272, 1024]⟩
abbrev S1024 : Shape := ⟨1, ![1024]⟩
abbrev S1024x256 : Shape := ⟨2, ![1024, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S272x1024 : S_.BroadcastsInDim S272x1024 (![] : Fin 0 → Fin S272x1024.rank)
  reducesTo_S272x1024_S_d0_1 : S272x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S1024x256 .f32) (main_arg5 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4096x256 .f32) (main_arg1 : FVec F S4096x16 .f32) (main_arg2 : FVec F S272x1024 .f32) (main_arg3 : FVec F S1024 .f32) (main_arg4 : FVec F S1024x256 .f32) (main_arg5 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S272x1024 .f32 := Host.absf main_arg2
  let main_cst_2 : FVec F S_ .f32 := constant S_ .f32 0x7F800000#32
  let main_v10 : FVec F S272x1024 .f32 := broadcastInDim S272x1024 ![] bcast_S_S272x1024 main_cst_2
  let main_v11 : IVec S272x1024 1 := cmpf .olt main_v9 main_v10
  let main_c_3 : IVec S_ 1 := constantI S_ 1 1#1
  let main_v12 : IVec S_ 1 := (fun x v => Host.reduce IntOp.andi x v reducesTo_S272x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S4096x256 : Shape := ⟨2, ![4096, 256]⟩
abbrev S4096x16 : Shape := ⟨2, ![4096, 16]⟩
abbrev S272x1024 : Shape := ⟨2, ![272, 1024]⟩
abbrev S1024 : Shape := ⟨1, ![1024]⟩
abbrev S1024x256 : Shape := ⟨2, ![1024, 256]⟩
abbrev S256 : Shape := ⟨1, ![256]⟩
abbrev S1x1024 : Shape := ⟨2, ![1, 1024]⟩
abbrev S1x256 : Shape := ⟨2, ![1, 256]⟩
abbrev S1024x16 : Shape := ⟨2, ![1024, 16]⟩
abbrev S1024x272 : Shape := ⟨2, ![1024, 272]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S4096x16, .f32⟩
  | .hbm, ⟨2, _⟩ => ⟨S272x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S1x1024, .f32⟩
  | .hbm, ⟨7, _⟩ => ⟨S1x256, .f32⟩
  | .hbm, ⟨8, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S1024x16, .f32⟩
  | .local _ .vmem, ⟨3, _⟩ => ⟨S1024x16, .f32⟩
  | .local _ .vmem, ⟨4, _⟩ => ⟨S272x1024, .f32⟩
  | .local _ .vmem, ⟨5, _⟩ => ⟨S1x1024, .f32⟩
  | .local _ .vmem, ⟨6, _⟩ => ⟨S1024x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S272x1024, .bf16⟩
  | .local _ .vmem, ⟨11, _⟩ => ⟨S1024x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S272x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024_S1x1024 : S1024.ShapeCasts S1x1024
  shapeCasts_S256_S1x256 : S256.ShapeCasts S1x256
  inb_S272x1024_S272x1024_0_0 : ∀ a, (![0, 0] : Fin 2 → Nat) a + S272x1024.size a ≤ S272x1024.size a
  h_S272x1024 : 0 < S272x1024.numel
  bitsLt_bf16_f32 : FTy.bits .bf16 < FTy.bits .f32
  shapeCasts_S272x1024_S272x1024 : S272x1024.ShapeCasts S272x1024
  packedbf16_S272x1024_S272x1024_0_0 : (Rect.unit (s := S272x1024) ![0, 0] S272x1024.size inb_S272x1024_S272x1024_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S1024x16_S1024x16_0_0 : ∀ a, (![0, 0] : Fin 2 → Nat) a + S1024x16.size a ≤ S1024x16.size a
  h_S1024x16 : 0 < S1024x16.numel
  concatenates_S1024x256_S1024x16_S1024x272_d1 : Shape.Concatenates [S1024x256, S1024x16] S1024x272 1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x272_S272x1024_S1024x1024_1_0_0_1_n_n_wf : DotDims.WF S1024x272 S272x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S4096x16.size a
  hwx0_1 : ∀ i : grid0.Coords, EltTy.bits .f32 = 32 ∨ (Rect.block (s := S4096x16) S1024x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S272x1024.size a ≤ S272x1024.size a
  hwx0_2 : ∀ i : grid0.Coords, EltTy.bits .f32 = 32 ∨ (Rect.block (s := S272x1024) S272x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .f32 = 32 ∨ (Rect.block (s := S1024x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S4096x256.size a
  hwx0_6 : ∀ i : grid0.Coords, EltTy.bits .f32 = 32 ∨ (Rect.block (s := S4096x256) S1024x256.size (cc0_transform_6 i) (hinb0_6 i)).WholeWords (EltTy.packing .f32)

variable [Facts₀]

def dot_S1024x272_S272x1024_S1024x1024_1_0_0_1_n_n : DotDims S1024x272 S272x1024 S1024x1024 where
  lhsContracting := [1]
  rhsContracting := [0]
  lhsNonContracting := [0]
  rhsNonContracting := [1]
  lhsBatch := []
  rhsBatch := []
  wf := dot_S1024x272_S272x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S272x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x16 : Shape := ⟨2, ![4096, 16]⟩
abbrev S272x1024 : Shape := ⟨2, ![272, 1024]⟩
abbrev S1024 : Shape := ⟨1, ![1024]⟩
abbrev S1024x256 : Shape := ⟨2, ![1024, 256]⟩
abbrev S256 : Shape := ⟨1, ![256]⟩
abbrev S4096x272 : Shape := ⟨2, ![4096, 272]⟩
abbrev S4096x1024 : Shape := ⟨2, ![4096, 1024]⟩
abbrev S1x1024 : Shape := ⟨2, ![1, 1024]⟩
abbrev S_ : Shape := ⟨0, ![]⟩
abbrev S1x256 : Shape := ⟨2, ![1, 256]⟩

abbrev nBuf : Space → Nat
  | .hbm => 32
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x16, .f32⟩
  | .hbm, ⟨2, _⟩ => ⟨S272x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S4096x272, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .i1⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call1_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_v10 : Ref sig .tc := ⟨.hbm, 31, rfl⟩

abbrev nD : Nat := 1
abbrev τ : Topo := Topo.v7x

variable {F : FTy → Type} [FloatOps F]

class Facts₀ : Prop where
  concatenates_S4096x256_S4096x16_S4096x272_d1 : Shape.Concatenates [S4096x256, S4096x16] S4096x272 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x272_S272x1024_S4096x1024_1_0_0_1_n_n_wf : DotDims.WF S4096x272 S272x1024 S4096x1024 [1] [0] [0] [1] [] []
  dot_S4096x1024_S1024x256_S4096x256_1_0_0_1_n_n_wf : DotDims.WF S4096x1024 S1024x256 S4096x256 [1] [0] [0] [1] [] []

variable [Facts₀]

def dot_S4096x272_S272x1024_S4096x1024_1_0_0_1_n_n : DotDims S4096x272 S272x1024 S4096x1024 where
  lhsContracting := [1]
  rhsContracting := [0]
  lhsNonContracting := [0]
  rhsNonContracting := [1]
  lhsBatch := []
  rhsBatch := []
  wf := dot_S4096x272_S272x1024_S4096x1024_1_0_0_1_n_n_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf

class Facts : Prop extends Facts₀ where

variable [Facts]
-- ==== Proof.Spec.lean ====
/-
  The network as mathematics, over the extended reals, with no program in sight.

  One input row is a data row `xr` (256 entries) and a noise row `er` (16 entries). The network joins them into
  `[xr | er]` (272 entries), applies an affine map and a rectifier to get 1024 hidden units, applies a second affine
  map to get 256 pre-activations, and ends with softplus in its overflow-safe form
  `max o 0 + log1p (exp (-|o|))`, where `|o|` is `max o (-o)`. Every row of the batch is treated alike, so the
  whole result array is this row function applied to each of its 4096 rows.
-/
import Idealize.ShloMosaic.PureOps.Ideal
import Idealize.ShloMosaic.Lib.ValueIdx

noncomputable section

open scoped BigOperators

namespace Cert.Mlp

open Idealize.ShloMosaic Idealize.ShloMosaic.ValueIdx

/-- A matrix of extended reals with literal extents. -/
abbrev Mat (a b : Nat) := (⟨2, ![a, b]⟩ : Shape).Idx → EReal

/-- A vector of extended reals with a literal extent. -/
abbrev Vect (a : Nat) := (⟨1, ![a]⟩ : Shape).Idx → EReal

/-- The joined row `[xr | er]`: entry `k` is the data row's for `k < 256` and the noise row's entry `k - 256` otherwise. -/
def cat (xr : Fin 256 → EReal) (er : Fin 16 → EReal) (k : Fin 272) : EReal :=
  if h : k.val < 256 then xr ⟨k.val, h⟩ else er ⟨k.val - 256, by have := k.isLt; omega⟩

/-- Hidden unit `j` of one row: `max (∑ₖ [xr | er]ₖ · W1ₖⱼ + b1ⱼ) 0`. -/
def hid (xr : Fin 256 → EReal) (er : Fin 16 → EReal) (W1 : Mat 272 1024) (b1 : Fin 1024 → EReal) (j : Fin 1024) : EReal :=
  max ((∑ k : Fin 272, cat xr er k * W1 (ix2 k j)) + b1 j) 0

/-- Pre-activation `q` of one row: `∑ⱼ hidⱼ · W2ⱼq + b2q`. -/
def pre (xr : Fin 256 → EReal) (er : Fin 16 → EReal) (W1 : Mat 272 1024) (b1 : Fin 1024 → EReal)
    (W2 : Mat 1024 256) (b2 : Fin 256 → EReal) (q : Fin 256) : EReal :=
  (∑ j : Fin 1024, hid xr er W1 b1 j * W2 (ix2 j q)) + b2 q

/-- Softplus in its overflow-safe form, `max o 0 + log1p (exp (-|o|))` with `|o| = max o (-o)`. -/
def softplus (o : EReal) : EReal := max o 0 + Ideal.log1p (Ideal.exp (-(max o (-o))))

/-- Output `q` of one row. -/
def rowOut (xr : Fin 256 → EReal) (er : Fin 16 → EReal) (W1 : Mat 272 1024) (b1 : Fin 1024 → EReal)
    (W2 : Mat 1024 256) (b2 : Fin 256 → EReal) (q : Fin 256) : EReal :=
  softplus (pre xr er W1 b1 W2 b2 q)

/-- The whole result: entry `(r, q)` is output `q` of row `r` of the data and noise arrays. -/
def G (X : Mat 4096 256) (E : Mat 4096 16) (W1 : Mat 272 1024) (b1 : Vect 1024) (W2 : Mat 1024 256) (b2 : Vect 256) :
    Mat 4096 256 := fun i =>
  rowOut (fun k => X (ix2 ⟨(i 0).val, idx2_lt0 i⟩ k)) (fun k => E (ix2 ⟨(i 0).val, idx2_lt0 i⟩ k)) W1
    (fun j => b1 (ix1 j)) W2 (fun q => b2 (ix1 q)) ⟨(i 1).val, idx2_lt1 i⟩

/-- `G` at an index given by its two coordinates. -/
theorem G_ix2 (X : Mat 4096 256) (E : Mat 4096 16) (W1 : Mat 272 1024) (b1 : Vect 1024) (W2 : Mat 1024 256) (b2 : Vect 256)
    (r : Fin 4096) (q : Fin 256) :
    G X E W1 b1 W2 b2 (ix2 r q)
      = rowOut (fun k => X (ix2 r k)) (fun k => E (ix2 r k)) W1 (fun j => b1 (ix1 j)) W2 (fun q => b2 (ix1 q)) q := rfl

/-- Subtracting zero before taking the absolute value changes nothing: the form in which a two-argument
    `log (exp a + exp b)` at `b = 0` spells softplus. -/
theorem softplus_sub_zero (o : EReal) :
    max o 0 + Ideal.log1p (Ideal.exp (-(max (o - 0) (-(o - 0))))) = softplus o := by
  rw [sub_zero]; rfl

/-- Negation written as subtraction from zero. -/
theorem softplus_zero_sub (o : EReal) :
    max o 0 + Ideal.log1p (Ideal.exp (0 - max o (-o))) = softplus o := by
  rw [zero_sub]; rfl

end Cert.Mlp

end
-- ==== Proof.LibConcatCols.lean ====
/-
  Two matrices with the same number of rows, joined side by side, read at an index: entry `(r, k)` of the join is
  the left matrix's entry `(r, k)` while `k` is a column of the left matrix, and the right matrix's entry
  `(r, k - b₁)` past it (`b₁` the left matrix's width).
-/
import Idealize.ShloMosaic.Lib.Pipeline.Value
import Idealize.ShloMosaic.Lib.ValueIdx

noncomputable section

namespace Cert.LibConcatCols

open Idealize.ShloMosaic Idealize.ShloMosaic.ValueIdx

variable {α : Type}

/-- A column of the left matrix: the join reads the left matrix there. -/
theorem concat_cols_left {R b₁ b₂ n : Nat} (x : (⟨2, ![R, b₁]⟩ : Shape).Idx → α) (e : (⟨2, ![R, b₂]⟩ : Shape).Idx → α)
    (h : Shape.Concatenates [(⟨2, ![R, b₁]⟩ : Shape), ⟨2, ![R, b₂]⟩] ⟨2, ![R, n]⟩ 1) (r : Fin R) (k : Fin n) (hk : k.val < b₁) :
    concatenate ⟨2, ![R, n]⟩ 1 [⟨⟨2, ![R, b₁]⟩, x⟩, ⟨⟨2, ![R, b₂]⟩, e⟩] h (ix2 r k) = x (ix2 r ⟨k.val, hk⟩) :=
  concatenate_pair_apply_left 1 x e h (ix2 r k) rfl (ix2 r ⟨k.val, hk⟩) fun b => by
    match b with
    | ⟨0, _⟩ => rfl
    | ⟨1, _⟩ => rfl

/-- A column past the left matrix: the join reads the right matrix, the left width less. -/
theorem concat_cols_right {R b₁ b₂ n : Nat} (x : (⟨2, ![R, b₁]⟩ : Shape).Idx → α) (e : (⟨2, ![R, b₂]⟩ : Shape).Idx → α)
    (h : Shape.Concatenates [(⟨2, ![R, b₁]⟩ : Shape), ⟨2, ![R, b₂]⟩] ⟨2, ![R, n]⟩ 1) (r : Fin R) (k : Fin n) (hk : b₁ ≤ k.val)
    (hk₂ : k.val - b₁ < b₂) :
    concatenate ⟨2, ![R, n]⟩ 1 [⟨⟨2, ![R, b₁]⟩, x⟩, ⟨⟨2, ![R, b₂]⟩, e⟩] h (ix2 r k) = e (ix2 r ⟨k.val - b₁, hk₂⟩) :=
  concatenate_pair_apply_right 1 x e h (ix2 r k) rfl rfl (ix2 r ⟨k.val - b₁, hk₂⟩)
    (fun b hb => by
      match b with
      | ⟨0, _⟩ => rfl
      | ⟨1, _⟩ => exact absurd rfl hb)
    (by show k.val - b₁ + b₁ = k.val; omega)

end Cert.LibConcatCols

end
-- ==== Proof.RefIsG.lean ====
/-
  The reference computes `G`.

  Read one operation at a time, the reference's result at `(r, q)` is: the data and noise arrays joined along the
  columns; a product with `W1` (a sum over the 272 joined columns); `b1` added to every row; a maximum with zero;
  a product with `W2` (a sum over the 1024 hidden units); `b2` added to every row; and softplus spelt as the
  two-argument `log (exp a + exp b)` at `b = 0`, whose guard against an undefined difference compares a number
  with itself and so never fires on the extended reals.
-/
import proofs.«177544_g9337258901604_cont_9to1_m_111_11_alg».proof.Proof.Gen.ReferenceIdeal.Read
import proofs.«177544_g9337258901604_cont_9to1_m_111_11_alg».proof.Proof.Spec
import proofs.«177544_g9337258901604_cont_9to1_m_111_11_alg».proof.Proof.LibConcatCols

noncomputable section

open scoped BigOperators

namespace Cert.ReferenceIdeal.RefValue

open Cert.ReferenceIdeal Cert.ReferenceIdeal.Gen Cert.ReferenceIdeal.Read Idealize.ShloMosaic Idealize.ShloMosaic.ValueIdx Cert.Mlp

variable (X : Mat 4096 256) (E : Mat 4096 16) (W1 : Mat 272 1024) (b1 : Vect 1024) (W2 : Mat 1024 256) (b2 : Vect 256)

/-- The joined array at `(r, k)` is the joined row `r` at `k`. -/
theorem joined_apply (r : Fin 4096) (k : Fin 272) :
    val_main_v0 (F := Ideal) X E (ix2 r k) = cat (fun k => X (ix2 r k)) (fun k => E (ix2 r k)) k := by
  unfold val_main_v0 cat
  by_cases hk : k.val < 256
  · rw [dif_pos hk]
    exact Cert.LibConcatCols.concat_cols_left X E _ r k hk
  · rw [dif_neg hk]
    exact Cert.LibConcatCols.concat_cols_right X E _ r k (by omega) (by have := k.isLt; omega)

/-- The first product's operand indices at output `(r, j)` and contracted column `k`: `(r, k)` and `(k, j)`. -/
theorem lidx1_eq (r : Fin 4096) (j : Fin 1024) (k : Fin 272) : lidx_main_v1 (ix2 r j) k = ix2 r k :=
  funext fun a => Fin.ext (by match a with | ⟨0, _⟩ => rfl | ⟨1, _⟩ => rfl)
theorem ridx1_eq (r : Fin 4096) (j : Fin 1024) (k : Fin 272) : ridx_main_v1 (ix2 r j) k = ix2 k j :=
  funext fun a => Fin.ext (by match a with | ⟨0, _⟩ => rfl | ⟨1, _⟩ => rfl)

/-- The first bias, broadcast over the rows, at `(r, j)` is its entry `j`. -/
theorem bias1_idx (r : Fin 4096) (j : Fin 1024) : idx_main_v2 (idx_main_v3 (ix2 r j)) = ix1 j :=
  funext fun a => Fin.ext (by match a with | ⟨0, _⟩ => rfl)

/-- The hidden layer at `(r, j)` is hidden unit `j` of row `r`. -/
theorem hidden_apply (r : Fin 4096) (j : Fin 1024) :
    val_main_v5 (F := Ideal) X E W1 b1 (ix2 r j)
      = hid (fun k => X (ix2 r k)) (fun k => E (ix2 r k)) W1 (fun j => b1 (ix1 j)) j := by
  rw [val_main_v5_apply, val_main_v4_apply, val_main_v1_apply, val_main_v3_apply, val_main_v2_apply,
    val_main_call0_v0_apply, val_main_call0_cst_apply, bias1_idx]
  simp only [lidx1_eq, ridx1_eq, joined_apply, Ideal.addf_def, Ideal.maximumf_def, Ideal.ofBits_def, Ideal.ofBits_zero_f32]
  rfl

/-- The second product's operand indices at output `(r, q)` and contracted unit `j`: `(r, j)` and `(j, q)`. -/
theorem lidx6_eq (r : Fin 4096) (q : Fin 256) (j : Fin 1024) : lidx_main_v6 (ix2 r q) j = ix2 r j :=
  funext fun a => Fin.ext (by match a with | ⟨0, _⟩ => rfl | ⟨1, _⟩ => rfl)
theorem ridx6_eq (r : Fin 4096) (q : Fin 256) (j : Fin 1024) : ridx_main_v6 (ix2 r q) j = ix2 j q :=
  funext fun a => Fin.ext (by match a with | ⟨0, _⟩ => rfl | ⟨1, _⟩ => rfl)

/-- The second bias, broadcast over the rows, at `(r, q)` is its entry `q`. -/
theorem bias2_idx (r : Fin 4096) (q : Fin 256) : idx_main_v7 (idx_main_v8 (ix2 r q)) = ix1 q :=
  funext fun a => Fin.ext (by match a with | ⟨0, _⟩ => rfl)

/-- The pre-activations at `(r, q)` are pre-activation `q` of row `r`. -/
theorem pre_apply (r : Fin 4096) (q : Fin 256) :
    val_main_v9 (F := Ideal) X E W1 b1 W2 b2 (ix2 r q)
      = pre (fun k => X (ix2 r k)) (fun k => E (ix2 r k)) W1 (fun j => b1 (ix1 j)) W2 (fun q => b2 (ix1 q)) q := by
  rw [val_main_v9_apply, val_main_v6_apply, val_main_v8_apply, val_main_v7_apply, bias2_idx]
  simp only [lidx6_eq, ridx6_eq, hidden_apply, Ideal.addf_def]
  rfl

/-- A number differs from itself nowhere on the extended reals: the guard's comparison is the zero bit. -/
theorem cmp_une_self (d : EReal) : Ideal.cmp .une d d = 0#1 := by
  unfold Ideal.cmp
  simp

/-- The reference's result array is `G` of its argument arrays. -/
theorem ref_eq : val_main_v10 (F := Ideal) X E W1 b1 W2 b2 = G X E W1 b1 W2 b2 := by
  funext i
  obtain ⟨r, q, rfl⟩ : ∃ (r : Fin 4096) (q : Fin 256), i = ix2 r q := ⟨i 0, i 1, eq_ix2 i⟩
  rw [G_ix2, val_main_v10_apply, val_main_call1_v4_apply, Ideal.cmpf_def, cmp_une_self, select_zero,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_cst_apply, pre_apply]
  simp only [Ideal.addf_def, Ideal.subf_def, Ideal.maximumf_def, Ideal.hostUnary_exp_def, Ideal.hostUnary_log1p_def,
    Ideal.hostNegf_def, Ideal.hostAbsf_def, Ideal.negf_def, Ideal.absf_def, Ideal.ofBits_def, Ideal.ofBits_zero_f32]
  exact softplus_sub_zero _

end Cert.ReferenceIdeal.RefValue

end
-- ==== Proof.Pieces.lean ====
/-
  What one run of the kernel body leaves behind, as values.

  At the first grid point the body first stores the two weight arrays, rounded to the matmul's input format, into two
  buffers of its own, and then computes the output block from the point's data block, its noise block, the two biases
  and what it has just stored. At every later point it stores nothing into those two buffers and computes the output
  block from what they already hold. Every load and every store goes through a whole buffer, so each buffer after
  the run holds the stored value itself, and each value loaded after a store is the value stored.
-/
import proofs.«177544_g9337258901604_cont_9to1_m_111_11_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- The zero offsets of a whole-buffer access. -/
theorem hz : (![0, 0] : Fin 2 → Nat) = fun _ => 0 := funext fun a => by fin_cases a <;> rfl

/-- A LATER POINT: the output block is the body's arithmetic of the point's input blocks and of what the two weight
    buffers hold. -/
theorem out_later (c : Dev nD) (i : grid0.Coords) (a1 : Memref sig .tc .vmem S1024x256 .f32) (h1 : a1.IsWhole) (a2 : Memref sig .tc .vmem S1024x16 .f32) (h2 : a2.IsWhole) (a3 : Memref sig .tc .vmem S272x1024 .f32) (h3 : a3.IsWhole) (a4 : Memref sig .tc .vmem S1x1024 .f32) (h4 : a4.IsWhole) (a5 : Memref sig .tc .vmem S1024x256 .f32) (h5 : a5.IsWhole) (a6 : Memref sig .tc .vmem S1x256 .f32) (h6 : a6.IsWhole) (a7 : Memref sig .tc .vmem S1024x256 .f32) (h7 : a7.IsWhole) (a8 : Memref sig .tc .vmem S272x1024 .bf16) (h8 : a8.IsWhole) (a9 : Memref sig .tc .vmem S1024x256 .bf16) (h9 : a9.IsWhole) (hc : ¬cond0_0 i) (x0 : Vec F S1024x256 .f32) (x1 : Vec F S1024x16 .f32) (x2 : Vec F S272x1024 .f32) (x3 : Vec F S1x1024 .f32) (x4 : Vec F S1024x256 .f32) (x5 : Vec F S1x256 .f32) (xs0 : Vec F S272x1024 .bf16) (xs1 : Vec F S1024x256 .bf16) :
    out0_B_6 c i a1 h1 a2 h2 a3 h3 a4 h4 a5 h5 a6 h6 a7 h7 a8 h8 a9 h9 hc x0 x1 x2 x3 x4 x5 xs0 xs1 = k0_pay3 x0 x1 xs0 x3 xs1 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xs0 xs1)]
  unfold kernelRun0_B
  dsimp only
  rw [View.canon_unit_zero hz]
  simp only [View.readAt_eq_ld, h1.read_unread, h2.read_unread, h4.read_unread, h6.read_unread, h8.read_unread,
    h9.read_unread, View.ld_unit_zero (S := S1024x256) hz, View.ld_unit_zero (S := S1024x16) hz,
    View.ld_unit_zero (S := S272x1024) hz, View.ld_unit_zero (S := S1x1024) hz, View.ld_unit_zero (S := S1x256) hz]

/-- THE FIRST POINT: the output block is the same arithmetic, the two weight buffers holding the rounded weights the
    body has just stored there. -/
theorem out_first (c : Dev nD) (i : grid0.Coords) (a1 : Memref sig .tc .vmem S1024x256 .f32) (h1 : a1.IsWhole) (a2 : Memref sig .tc .vmem S1024x16 .f32) (h2 : a2.IsWhole) (a3 : Memref sig .tc .vmem S272x1024 .f32) (h3 : a3.IsWhole) (a4 : Memref sig .tc .vmem S1x1024 .f32) (h4 : a4.IsWhole) (a5 : Memref sig .tc .vmem S1024x256 .f32) (h5 : a5.IsWhole) (a6 : Memref sig .tc .vmem S1x256 .f32) (h6 : a6.IsWhole) (a7 : Memref sig .tc .vmem S1024x256 .f32) (h7 : a7.IsWhole) (a8 : Memref sig .tc .vmem S272x1024 .bf16) (h8 : a8.IsWhole) (a9 : Memref sig .tc .vmem S1024x256 .bf16) (h9 : a9.IsWhole) (hc : cond0_0 i) (x0 : Vec F S1024x256 .f32) (x1 : Vec F S1024x16 .f32) (x2 : Vec F S272x1024 .f32) (x3 : Vec F S1x1024 .f32) (x4 : Vec F S1024x256 .f32) (x5 : Vec F S1x256 .f32) :
    out0_A_6 c i a1 h1 a2 h2 a3 h3 a4 h4 a5 h5 a6 h6 a7 h7 a8 h8 a9 h9 hc x0 x1 x2 x3 x4 x5 = k0_pay3 x0 x1 (k0_pay1 x2) x3 (k0_pay2 x4) x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz, View.readCov_unit_zero (S := S272x1024) _ hz, View.readCov_unit_zero (S := S1024x256) _ hz]
  simp only [View.readAt_eq_ld, h1.read_unread, h2.read_unread, h3.read_unread, h4.read_unread, h5.read_unread,
    h6.read_unread, View.ld_unit_zero (S := S1024x256) hz, View.ld_unit_zero (S := S1024x16) hz,
    View.ld_unit_zero (S := S272x1024) hz, View.ld_unit_zero (S := S1x1024) hz, View.ld_unit_zero (S := S1x256) hz]

/-- THE FIRST POINT leaves the first weight array, rounded, in the first buffer. -/
theorem w1_first (c : Dev nD) (i : grid0.Coords) (a1 : Memref sig .tc .vmem S1024x256 .f32) (h1 : a1.IsWhole) (a2 : Memref sig .tc .vmem S1024x16 .f32) (h2 : a2.IsWhole) (a3 : Memref sig .tc .vmem S272x1024 .f32) (h3 : a3.IsWhole) (a4 : Memref sig .tc .vmem S1x1024 .f32) (h4 : a4.IsWhole) (a5 : Memref sig .tc .vmem S1024x256 .f32) (h5 : a5.IsWhole) (a6 : Memref sig .tc .vmem S1x256 .f32) (h6 : a6.IsWhole) (a7 : Memref sig .tc .vmem S1024x256 .f32) (h7 : a7.IsWhole) (a8 : Memref sig .tc .vmem S272x1024 .bf16) (h8 : a8.IsWhole) (a9 : Memref sig .tc .vmem S1024x256 .bf16) (h9 : a9.IsWhole) (hc : cond0_0 i) (x0 : Vec F S1024x256 .f32) (x1 : Vec F S1024x16 .f32) (x2 : Vec F S272x1024 .f32) (x3 : Vec F S1x1024 .f32) (x4 : Vec F S1024x256 .f32) (x5 : Vec F S1x256 .f32) :
    sout0_A_0 c i a1 h1 a2 h2 a3 h3 a4 h4 a5 h5 a6 h6 a7 h7 a8 h8 a9 h9 hc x0 x1 x2 x3 x4 x5 = k0_pay1 x2 := by
  unfold sout0_A_0
  rw [View.read_writes_eq_canon _ _ _ (scover0_A_0 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h3.read_unread, View.ld_unit_zero (S := S272x1024) hz]

/-- THE FIRST POINT leaves the second weight array, rounded, in the second buffer. -/
theorem w2_first (c : Dev nD) (i : grid0.Coords) (a1 : Memref sig .tc .vmem S1024x256 .f32) (h1 : a1.IsWhole) (a2 : Memref sig .tc .vmem S1024x16 .f32) (h2 : a2.IsWhole) (a3 : Memref sig .tc .vmem S272x1024 .f32) (h3 : a3.IsWhole) (a4 : Memref sig .tc .vmem S1x1024 .f32) (h4 : a4.IsWhole) (a5 : Memref sig .tc .vmem S1024x256 .f32) (h5 : a5.IsWhole) (a6 : Memref sig .tc .vmem S1x256 .f32) (h6 : a6.IsWhole) (a7 : Memref sig .tc .vmem S1024x256 .f32) (h7 : a7.IsWhole) (a8 : Memref sig .tc .vmem S272x1024 .bf16) (h8 : a8.IsWhole) (a9 : Memref sig .tc .vmem S1024x256 .bf16) (h9 : a9.IsWhole) (hc : cond0_0 i) (x0 : Vec F S1024x256 .f32) (x1 : Vec F S1024x16 .f32) (x2 : Vec F S272x1024 .f32) (x3 : Vec F S1x1024 .f32) (x4 : Vec F S1024x256 .f32) (x5 : Vec F S1x256 .f32) :
    sout0_A_1 c i a1 h1 a2 h2 a3 h3 a4 h4 a5 h5 a6 h6 a7 h7 a8 h8 a9 h9 hc x0 x1 x2 x3 x4 x5 = k0_pay2 x4 := by
  unfold sout0_A_1
  rw [View.read_writes_eq_canon _ _ _ (scover0_A_1 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h5.read_unread, View.ld_unit_zero (S := S1024x256) hz]

end Cert.KernelIdeal.Pieces

end
-- ==== Proof.PayloadAt.lean ====
/-
  The body's arithmetic at one entry of the output block, on the extended reals.

  The body's result for a grid point is computed in two stages. The hidden block: the point's data block and noise block
  joined along the columns, a matrix product with the first weight buffer into a zero accumulator, the first bias row
  added to every row, a maximum with zero. The output block: a matrix product of the hidden block with the second
  weight buffer into a zero accumulator, the second bias row added to every row, then
  `max o 0 + log1p (exp (0 - |o|))`. A change of float format is the identity on the extended reals, and a matrix
  product into a zero accumulator is the plain sum of products over the contracted axis. So entry `(p, q)` of the
  output block is output `q` of the network on row `p` of the two input blocks.
-/
import proofs.«177544_g9337258901604_cont_9to1_m_111_11_alg».proof.Proof.Gen.KernelIdeal.Skeleton
import proofs.«177544_g9337258901604_cont_9to1_m_111_11_alg».proof.Proof.Spec
import proofs.«177544_g9337258901604_cont_9to1_m_111_11_alg».proof.Proof.LibConcatCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Cert.Mlp

/-! ## The two stages of the payload -/

section
variable {F : FTy → Type} [FloatOps F]

/-- The hidden block: `max ([x | e] · W1 + b1) 0`, rounded to the second product's input format. -/
def hiddenBlk (v3 : Vec F S1024x256 .f32) (v5 : Vec F S1024x16 .f32) (v8 : Vec F S272x1024 .bf16) (v10 : Vec F S1x1024 .f32) :
    FVec F S1024x1024 .bf16 :=
  truncf .bf16 (maximumf (addf (matmul dot_S1024x272_S272x1024_S1024x1024_1_0_0_1_n_n none
      (concatenate S1024x272 1 [⟨S1024x256, truncf .bf16 v3 bitsLt_bf16_f32⟩, ⟨S1024x16, truncf .bf16 v5 bitsLt_bf16_f32⟩] concatenates_S1024x256_S1024x16_S1024x272_d1)
      v8 (constant S1024x1024 .f32 0x00000000#32))
      (broadcastTo S1024x1024 (shapeCast S1x1024 v10 shapeCasts_S1x1024_S1x1024) broadcasts_S1x1024_S1024x1024))
    (broadcast S1024x1024 (Scalar.ofBits .f32 0x00000000#32))) bitsLt_bf16_f32

/-- The pre-activations of the output block: `h · W2 + b2`. -/
def preBlk (h : FVec F S1024x1024 .bf16) (v17 : Vec F S1024x256 .bf16) (v19 : Vec F S1x256 .f32) : FVec F S1024x256 .f32 :=
  addf (matmul dot_S1024x1024_S1024x256_S1024x256_1_0_0_1_n_n none h v17 (constant S1024x256 .f32 0x00000000#32))
    (broadcastTo S1024x256 (shapeCast S1x256 v19 shapeCasts_S1x256_S1x256) broadcasts_S1x256_S1024x256)

/-- Softplus of a block, as the body spells it. -/
def softplusBlk (o : FVec F S1024x256 .f32) : FVec F S1024x256 .f32 :=
  addf (maximumf o (broadcast S1024x256 (Scalar.ofBits .f32 0x00000000#32)))
    (log1p (exp (subf (broadcast S1024x256 (Scalar.ofBits .f32 0x00000000#32)) (absf o))))

/-- The body's stored value is these stages composed. -/
theorem pay3_stages (v3 : Vec F S1024x256 .f32) (v5 : Vec F S1024x16 .f32) (v8 : Vec F S272x1024 .bf16) (v10 : Vec F S1x1024 .f32)
    (v17 : Vec F S1024x256 .bf16) (v19 : Vec F S1x256 .f32) :
    k0_pay3 v3 v5 v8 v10 v17 v19 = softplusBlk (preBlk (hiddenBlk v3 v5 v8 v10) v17 v19) := rfl

end

/-! ## The two matrix products read at an entry -/

theorem lhs1_0 (i : S1024x1024.Idx) (q : dot_S1024x272_S272x1024_S1024x1024_1_0_0_1_n_n.contr.Idx) : (dot_S1024x272_S272x1024_S1024x1024_1_0_0_1_n_n.lhsIdx i q 0).val = (i 0).val := by
  unfold DotDims.lhsIdx
  rw [dif_neg (show ¬(0 : Fin S1024x272.rank) ∈ dot_S1024x272_S272x1024_S1024x1024_1_0_0_1_n_n.lhsBatch by decide), dif_pos (show (0 : Fin S1024x272.rank) ∈ dot_S1024x272_S272x1024_S1024x1024_1_0_0_1_n_n.lhsNonContracting by decide)]
  rfl
theorem lhs1_1 (i : S1024x1024.Idx) (q : dot_S1024x272_S272x1024_S1024x1024_1_0_0_1_n_n.contr.Idx) : (dot_S1024x272_S272x1024_S1024x1024_1_0_0_1_n_n.lhsIdx i q 1).val = (q ⟨0, by decide⟩).val :=
  dot_S1024x272_S272x1024_S1024x1024_1_0_0_1_n_n.lhsIdx_val_of_single rfl i q
theorem rhs1_0 (i : S1024x1024.Idx) (q : dot_S1024x272_S272x1024_S1024x1024_1_0_0_1_n_n.contr.Idx) : (dot_S1024x272_S272x1024_S1024x1024_1_0_0_1_n_n.rhsIdx i q 0).val = (q ⟨0, by decide⟩).val :=
  dot_S1024x272_S272x1024_S1024x1024_1_0_0_1_n_n.rhsIdx_val_of_single rfl i q
theorem rhs1_1 (i : S1024x1024.Idx) (q : dot_S1024x272_S272x1024_S1024x1024_1_0_0_1_n_n.contr.Idx) : (dot_S1024x272_S272x1024_S1024x1024_1_0_0_1_n_n.rhsIdx i q 1).val = (i 1).val := by
  unfold DotDims.rhsIdx
  rw [dif_neg (show ¬(1 : Fin S272x1024.rank) ∈ dot_S1024x272_S272x1024_S1024x1024_1_0_0_1_n_n.rhsBatch by decide), dif_pos (show (1 : Fin S272x1024.rank) ∈ dot_S1024x272_S272x1024_S1024x1024_1_0_0_1_n_n.rhsNonContracting by decide)]
  rfl

/-- The first product at `(p, j)`: the sum over the 272 joined columns. -/
theorem mm1_apply (l : FVec Ideal S1024x272 .bf16) (r : FVec Ideal S272x1024 .bf16) (p : Fin 1024) (j : Fin 1024) :
    matmul dot_S1024x272_S272x1024_S1024x1024_1_0_0_1_n_n none l r (constant S1024x1024 .f32 0x00000000#32) (ix2 p j) = ∑ k : Fin 272, l (ix2 p k) * r (ix2 k j) := by
  refine (Ideal.matmul_constant_zero_apply dot_S1024x272_S272x1024_S1024x1024_1_0_0_1_n_n none l r (ix2 p j)).trans ?_
  rw [← Equiv.sum_comp (contrEquiv1 dot_S1024x272_S272x1024_S1024x1024_1_0_0_1_n_n 272 rfl rfl).symm]
  refine Finset.sum_congr rfl fun k _ => ?_
  have hk := contrEquiv1_symm_val dot_S1024x272_S272x1024_S1024x1024_1_0_0_1_n_n 272 rfl rfl k
  have el : dot_S1024x272_S272x1024_S1024x1024_1_0_0_1_n_n.lhsIdx (ix2 p j) ((contrEquiv1 dot_S1024x272_S272x1024_S1024x1024_1_0_0_1_n_n 272 rfl rfl).symm k) = ix2 p k := funext fun a => Fin.ext (by
    match a with
    | ⟨0, _⟩ => exact lhs1_0 _ _
    | ⟨1, _⟩ => exact (lhs1_1 _ _).trans hk)
  have er : dot_S1024x272_S272x1024_S1024x1024_1_0_0_1_n_n.rhsIdx (ix2 p j) ((contrEquiv1 dot_S1024x272_S272x1024_S1024x1024_1_0_0_1_n_n 272 rfl rfl).symm k) = ix2 k j := funext fun a => Fin.ext (by
    match a with
    | ⟨0, _⟩ => exact (rhs1_0 _ _).trans hk
    | ⟨1, _⟩ => exact rhs1_1 _ _)
  rw [el, er]

theorem lhs2_0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs2_1 (i : S1024x256.Idx) (q : dot_S1024x1024_S1024x256_S1024x256_1_0_0_1_n_n.contr.Idx) : (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs2_0 (i : S1024x256.Idx) (q : dot_S1024x1024_S1024x256_S1024x256_1_0_0_1_n_n.contr.Idx) : (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs2_1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The second product at `(p, q)`: the sum over the 1024 hidden units. -/
theorem mm2_apply (l : FVec Ideal S1024x1024 .bf16) (r : FVec Ideal S1024x256 .bf16) (p : Fin 1024) (q : Fin 256) :
    matmul dot_S1024x1024_S1024x256_S1024x256_1_0_0_1_n_n none l r (constant S1024x256 .f32 0x00000000#32) (ix2 p q) = ∑ j : Fin 1024, l (ix2 p j) * r (ix2 j q) := by
  refine (Ideal.matmul_constant_zero_apply dot_S1024x1024_S1024x256_S1024x256_1_0_0_1_n_n none l r (ix2 p q)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q) ((contrEquiv1 dot_S1024x1024_S1024x256_S1024x256_1_0_0_1_n_n 1024 rfl rfl).symm k) = ix2 p k := funext fun a => Fin.ext (by
    match a with
    | ⟨0, _⟩ => exact lhs2_0 _ _
    | ⟨1, _⟩ => exact (lhs2_1 _ _).trans hk)
  have er : dot_S1024x1024_S1024x256_S1024x256_1_0_0_1_n_n.rhsIdx (ix2 p q) ((contrEquiv1 dot_S1024x1024_S1024x256_S1024x256_1_0_0_1_n_n 1024 rfl rfl).symm k) = ix2 k q := funext fun a => Fin.ext (by
    match a with
    | ⟨0, _⟩ => exact (rhs2_0 _ _).trans hk
    | ⟨1, _⟩ => exact rhs2_1 _ _)
  rw [el, er]

/-! ## The stages read at an entry -/

/-- The joined block at `(p, k)` is the joined row `p` at `k`. -/
theorem joined_apply (x0 : FVec Ideal S1024x256 .f32) (x1 : FVec Ideal S1024x16 .f32) (p : Fin 1024) (k : Fin 272) :
    concatenate S1024x272 1 [⟨S1024x256, truncf .bf16 x0 bitsLt_bf16_f32⟩, ⟨S1024x16, truncf .bf16 x1 bitsLt_bf16_f32⟩]
        concatenates_S1024x256_S1024x16_S1024x272_d1 (ix2 p k)
      = cat (fun k => x0 (ix2 p k)) (fun k => x1 (ix2 p k)) k := by
  unfold cat
  by_cases hk : k.val < 256
  · rw [dif_pos hk]
    exact Cert.LibConcatCols.concat_cols_left _ _ _ p k hk
  · rw [dif_neg hk]
    exact Cert.LibConcatCols.concat_cols_right _ _ _ p k (by omega) (by have := k.isLt; omega)

/-- The hidden block at `(p, j)` is hidden unit `j` of row `p`. -/
theorem hiddenBlk_apply (x0 : FVec Ideal S1024x256 .f32) (x1 : FVec Ideal S1024x16 .f32) (w1 : FVec Ideal S272x1024 .bf16)
    (b1r : FVec Ideal S1x1024 .f32) (p : Fin 1024) (j : Fin 1024) :
    hiddenBlk (F := Ideal) x0 x1 w1 b1r (ix2 p j)
      = hid (fun k => x0 (ix2 p k)) (fun k => x1 (ix2 p k)) w1 (fun j => b1r (ix2 (0 : Fin 1) j)) j := by
  unfold hiddenBlk hid
  rw [truncf_apply, maximumf_apply, addf_apply, mm1_apply, broadcast_apply, broadcastTo_1b_ab_apply, shapeCast_self]
  simp only [joined_apply]
  show max _ (Ideal.ofBits .f32 0x00000000#32) = _
  rw [Ideal.ofBits_zero_f32]

/-- The pre-activation block at `(p, q)`. -/
theorem preBlk_apply (h : FVec Ideal S1024x1024 .bf16) (w2 : FVec Ideal S1024x256 .bf16) (b2r : FVec Ideal S1x256 .f32)
    (p : Fin 1024) (q : Fin 256) :
    preBlk (F := Ideal) h w2 b2r (ix2 p q) = (∑ j : Fin 1024, h (ix2 p j) * w2 (ix2 j q)) + b2r (ix2 (0 : Fin 1) q) := by
  unfold preBlk
  rw [addf_apply, mm2_apply, broadcastTo_1b_ab_apply, shapeCast_self]

/-- Softplus of a block at an entry is softplus of the entry. -/
theorem softplusBlk_apply (o : FVec Ideal S1024x256 .f32) (y : S1024x256.Idx) :
    softplusBlk (F := Ideal) o y = softplus (o y) := by
  show max (o y) (Ideal.ofBits .f32 0x00000000#32)
      + Ideal.log1p (Ideal.exp (Ideal.ofBits .f32 0x00000000#32 - max (o y) (-(o y)))) = _
  rw [Ideal.ofBits_zero_f32]
  exact softplus_zero_sub _

/-- THE OUTPUT BLOCK at `(p, q)` is output `q` of the network on row `p` of the data and noise blocks, with the
    weights the two buffers hold and the biases the two bias rows hold. -/
theorem pay3_apply (x0 : FVec Ideal S1024x256 .f32) (x1 : FVec Ideal S1024x16 .f32) (w1 : FVec Ideal S272x1024 .bf16)
    (b1r : FVec Ideal S1x1024 .f32) (w2 : FVec Ideal S1024x256 .bf16) (b2r : FVec Ideal S1x256 .f32) (p : Fin 1024) (q : Fin 256) :
    k0_pay3 (F := Ideal) x0 x1 w1 b1r w2 b2r (ix2 p q)
      = rowOut (fun k => x0 (ix2 p k)) (fun k => x1 (ix2 p k)) w1 (fun j => b1r (ix2 (0 : Fin 1) j)) w2
          (fun q => b2r (ix2 (0 : Fin 1) q)) q := by
  rw [pay3_stages, softplusBlk_apply, preBlk_apply]
  simp only [hiddenBlk_apply]
  rfl

/-- The first weight buffer's contents: rounding to the product's input format is the identity on the extended reals. -/
theorem pay1_eq (w : FVec Ideal S272x1024 .f32) : k0_pay1 (F := Ideal) w = w := by
  unfold k0_pay1
  dsimp only
  rw [shapeCast_self]
  rfl

/-- The second weight buffer's contents, likewise. -/
theorem pay2_eq (w : FVec Ideal S1024x256 .f32) : k0_pay2 (F := Ideal) w = w := by
  unfold k0_pay2
  dsimp only
  rw [shapeCast_self]
  rfl

end Cert.KernelIdeal.Payload

end
-- ==== Proof.KernelValue.lean ====
/-
  The kernel's result array is `G` of its argument arrays.

  The grid has four points; point `t` works on rows `1024·t … 1024·t + 1023` of the data and noise arrays and
  writes rows `1024·t … 1024·t + 1023` of the result. The two weight arrays and the two bias rows are the same whole
  arrays at every point. The first point copies the weights into two buffers of the kernel's own, and no later point
  stores into them, so at EVERY point the body multiplies by the weights themselves (by induction on the point). Hence
  what point `t` writes back is the network applied to its 1024 rows, which is block `t` of `G`; the four blocks
  tile the result array, so the array ends holding `G`.

  The bias rows are the one-dimensional bias arguments reshaped to one row by the program before the kernel is launched.
-/
import proofs.«177544_g9337258901604_cont_9to1_m_111_11_alg».proof.Proof.Gen.KernelIdeal.Value
import proofs.«177544_g9337258901604_cont_9to1_m_111_11_alg».proof.Proof.Pieces
import proofs.«177544_g9337258901604_cont_9to1_m_111_11_alg».proof.Proof.PayloadAt
import proofs.«177544_g9337258901604_cont_9to1_m_111_11_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.Mlp
open Idealize.ShloMosaic.Pipeline (Dat)

/-! ## Where each window's block sits -/

/-- The printed index maps, decided over the four grid points: the data, noise and result windows move down one block
    of rows per point; the weight and bias windows never move. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section
variable {F : FTy → Type} [FloatOps F]
variable (m : (ℓ : Loc nD τ sig) → Buf (Elt F) ℓ)

/-- The first weight window's block is the whole first weight array, at every point. -/
theorem w1_blk (c : Dev nD) (t : Fin cfg0.N) : (iblk m c 2 t : Vec F S272x1024 .f32) = V m c main_arg2 := by
  obtain ⟨-, -, -, -, e0, e1, -⟩ := idx_facts t
  funext j
  unfold iblk
  rw [View.read_apply]
  show V m c main_arg2 _ = V m c main_arg2 j
  refine congrArg (V m c main_arg2) (funext fun a => Fin.ext ?_)
  match a with
  | ⟨0, _⟩ => show win0_2.index t (0 : Fin 2) * 272 + 1 * (j 0).val = (j 0).val; rw [e0]; omega
  | ⟨1, _⟩ => show win0_2.index t (1 : Fin 2) * 1024 + 1 * (j 1).val = (j 1).val; rw [e1]; omega

/-- The second weight window's block is the whole second weight array, at every point. -/
theorem w2_blk (c : Dev nD) (t : Fin cfg0.N) : (iblk m c 4 t : Vec F S1024x256 .f32) = V m c main_arg4 := by
  obtain ⟨-, -, -, -, -, -, -, -, e0, e1, -⟩ := idx_facts t
  funext j
  unfold iblk
  rw [View.read_apply]
  show V m c main_arg4 _ = V m c main_arg4 j
  refine congrArg (V m c main_arg4) (funext fun a => Fin.ext ?_)
  match a with
  | ⟨0, _⟩ => show win0_4.index t (0 : Fin 2) * 1024 + 1 * (j 0).val = (j 0).val; rw [e0]; omega
  | ⟨1, _⟩ => show win0_4.index t (1 : Fin 2) * 256 + 1 * (j 1).val = (j 1).val; rw [e1]; omega

/-! ## The weight buffers hold the weights after every point -/

/-- The first point stores the two weight arrays into the kernel's two buffers. -/
theorem weights_first (c : Dev nD) (t : Fin cfg0.N) (h0 : t.val % 4 = 0) :
    (outsAt0 m c t.val t.isLt).2.1 = k0_pay1 (V m c main_arg2) ∧ (outsAt0 m c t.val t.isLt).2.2 = k0_pay2 (V m c main_arg4) := by
  rw [outsAt0_A m c t h0]
  dsimp only
  refine ⟨?_, ?_⟩
  · refine (Pieces.w1_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).trans ?_
    rw [w1_blk]
  · refine (Pieces.w2_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).trans ?_
    rw [w2_blk]

/-- A later point leaves the two buffers as the point before left them. -/
theorem weights_later (c : Dev nD) (t : Fin cfg0.N) (h0 : ¬t.val % 4 = 0)
    (ih : (outsAt0 m c (t.val - 1) (Nat.lt_of_le_of_lt (Nat.sub_le _ _) t.isLt)).2.1 = k0_pay1 (V m c main_arg2)
      ∧ (outsAt0 m c (t.val - 1) (Nat.lt_of_le_of_lt (Nat.sub_le _ _) t.isLt)).2.2 = k0_pay2 (V m c main_arg4)) :
    (outsAt0 m c t.val t.isLt).2.1 = k0_pay1 (V m c main_arg2) ∧ (outsAt0 m c t.val t.isLt).2.2 = k0_pay2 (V m c main_arg4) := by
  rw [outsAt0_B m c t h0]
  dsimp only
  exact ih

/-- After every point the kernel's two buffers hold the two weight arrays as the first point stored them — by
    induction on the point. -/
theorem weights_kept (c : Dev nD) : ∀ (n : ℕ) (h : n < cfg0.N),
    (outsAt0 m c n h).2.1 = k0_pay1 (V m c main_arg2) ∧ (outsAt0 m c n h).2.2 = k0_pay2 (V m c main_arg4)
  | 0, h => weights_first m c ⟨0, h⟩ rfl
  | n + 1, h =>
    weights_later m c ⟨n + 1, h⟩ (by have hN : cfg0.N = 4 := N_0; dsimp only; omega) (weights_kept c n (Nat.lt_of_succ_lt h))

/-! ## What each point writes back -/

/-- After point `t` the output's staging buffer holds the body's arithmetic of the point's data and noise blocks, the
    two bias rows, and the two weight arrays themselves. -/
theorem out_at (c : Dev nD) (t : Fin cfg0.N) :
    (outsAt0 m c t.val t.isLt).1
      = k0_pay3 (iblk m c 0 t) (iblk m c 1 t) (k0_pay1 (V m c main_arg2)) (iblk m c 3 t) (k0_pay2 (V m c main_arg4)) (iblk m c 5 t) := by
  by_cases h0 : t.val % 4 = 0
  · rw [outsAt0_A m c t h0]
    dsimp only
    refine (Pieces.out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t)).trans ?_
    rw [w1_blk, w2_blk]
  · rw [outsAt0_B m c t h0]
    dsimp only
    have ih := weights_kept m c (t.val - 1) (Nat.lt_of_le_of_lt (Nat.sub_le _ _) t.isLt)
    refine (Pieces.out_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).2.1
      (outsAt0 m c (t.val - 1) (Nat.lt_of_le_of_lt (Nat.sub_le _ _) t.isLt)).2.2).trans ?_
    rw [ih.1, ih.2]

end

/-! ## On the extended reals: each block is a block of `G` -/

section
variable (m : (ℓ : Loc nD τ sig) → Buf (Elt Ideal) ℓ) (ρ : Dev nD → PrngReg)

/-- The kernel's result: `G` of the six argument arrays. -/
abbrev result (c : Dev nD) : Buf (Elt Ideal) ((c : Thread nD τ).loc main_v2) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Row `p` of point `t`'s data block is row `1024·t + p` of the data array. -/
theorem x_blk (c : Dev nD) (t : Fin cfg0.N) (p : Fin 1024) (k : Fin 256) (hr : 1024 * t.val + p.val < 4096) :
    (iblk m c 0 t : FVec Ideal S1024x256 .f32) (ix2 p k)
      = (m ((c : Thread nD τ).loc main_arg0) : Mat 4096 256) (ix2 ⟨1024 * t.val + p.val, hr⟩ k) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * p.val = 1024 * t.val + p.val; rw [e0]; omega
  | ⟨1, _⟩ => show win0_0.index t (1 : Fin 2) * 256 + 1 * k.val = k.val; rw [e1]; omega

/-- Row `p` of point `t`'s noise block is row `1024·t + p` of the noise array. -/
theorem e_blk (c : Dev nD) (t : Fin cfg0.N) (p : Fin 1024) (k : Fin 16) (hr : 1024 * t.val + p.val < 4096) :
    (iblk m c 1 t : FVec Ideal S1024x16 .f32) (ix2 p k)
      = (m ((c : Thread nD τ).loc main_arg1) : Mat 4096 16) (ix2 ⟨1024 * t.val + p.val, hr⟩ k) := by
  obtain ⟨-, -, e0, e1, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 1024 + 1 * p.val = 1024 * t.val + p.val; rw [e0]; omega
  | ⟨1, _⟩ => show win0_1.index t (1 : Fin 2) * 16 + 1 * k.val = k.val; rw [e1]; omega

/-- The first bias row as the kernel finds it: the first bias argument reshaped to one row before the launch. -/
theorem b1_row (c : Dev nD) :
    (V m c main_v0 : S1x1024.Idx → EReal) = shapeCast S1x1024 (m ((c : Thread nD τ).loc main_arg3)) shapeCasts_S1024_S1x1024 := by
  dsimp only [Gen.V, Gen.hostOps0]; after_results; rfl

/-- The second bias row as the kernel finds it, likewise. -/
theorem b2_row (c : Dev nD) :
    (V m c main_v1 : S1x256.Idx → EReal) = shapeCast S1x256 (m ((c : Thread nD τ).loc main_arg5)) shapeCasts_S256_S1x256 := by
  dsimp only [Gen.V, Gen.hostOps0]; after_results; rfl

/-- Entry `j` of the first bias window's one row is entry `j` of the first bias argument. -/
theorem b1_blk (c : Dev nD) (t : Fin cfg0.N) (j : Fin 1024) :
    (iblk m c 3 t : FVec Ideal S1x1024 .f32) (ix2 (0 : Fin 1) j) = (m ((c : Thread nD τ).loc main_arg3) : Vect 1024) (ix1 j) := by
  obtain ⟨-, -, -, -, -, -, e0, e1, -⟩ := idx_facts t
  unfold iblk
  rw [View.read_apply]
  show V m c main_v0 _ = _
  have he : ((cfg0.win 3).blk t).view.emb (ix2 (0 : Fin 1) j) = ix2 (0 : Fin 1) j := funext fun a => Fin.ext (by
    match a with
    | ⟨0, _⟩ => show win0_3.index t (0 : Fin 2) * 1 + 1 * 0 = 0; rw [e0]
    | ⟨1, _⟩ => show win0_3.index t (1 : Fin 2) * 1024 + 1 * j.val = j.val; rw [e1]; omega)
  rw [he, b1_row, shapeCast_a_1a_apply]

/-- Entry `q` of the second bias window's one row is entry `q` of the second bias argument. -/
theorem b2_blk (c : Dev nD) (t : Fin cfg0.N) (q : Fin 256) :
    (iblk m c 5 t : FVec Ideal S1x256 .f32) (ix2 (0 : Fin 1) q) = (m ((c : Thread nD τ).loc main_arg5) : Vect 256) (ix1 q) := by
  obtain ⟨-, -, -, -, -, -, -, -, -, -, e0, e1, -⟩ := idx_facts t
  unfold iblk
  rw [View.read_apply]
  show V m c main_v1 _ = _
  have he : ((cfg0.win 5).blk t).view.emb (ix2 (0 : Fin 1) q) = ix2 (0 : Fin 1) q := funext fun a => Fin.ext (by
    match a with
    | ⟨0, _⟩ => show win0_5.index t (0 : Fin 2) * 1 + 1 * 0 = 0; rw [e0]
    | ⟨1, _⟩ => show win0_5.index t (1 : Fin 2) * 256 + 1 * q.val = q.val; rw [e1]; omega)
  rw [he, b2_row, shapeCast_a_1a_apply]

/-- Entry `(p, q)` of point `t`'s block of the result array is entry `(1024·t + p, q)` of the array. -/
theorem out_emb (t : Fin cfg0.N) (p : Fin 1024) (q : Fin 256) (hr : 1024 * t.val + p.val < 4096) :
    ((cfg0.win 6).blk t).view.emb (ix2 p q) = ix2 ⟨1024 * t.val + p.val, hr⟩ q := by
  obtain ⟨-, -, -, -, -, -, -, -, -, -, -, -, e0, e1⟩ := idx_facts t
  refine funext fun a => Fin.ext ?_
  match a with
  | ⟨0, _⟩ => show win0_6.index t (0 : Fin 2) * 1024 + 1 * p.val = 1024 * t.val + p.val; rw [e0]; omega
  | ⟨1, _⟩ => show win0_6.index t (1 : Fin 2) * 256 + 1 * q.val = q.val; rw [e1]; omega

/-- WHAT POINT `t` WRITES BACK is block `t` of `G` of the argument arrays. -/
theorem flushed_eq (c : Dev nD) (t : Fin cfg0.N) :
    (dats m 0 c).flushed 6 t = ((cfg0.win 6).blk t).view.read (Elt Ideal) (result m c) := by
  rw [Value.flushed6, out_at]
  funext y
  obtain ⟨p, q, rfl⟩ : ∃ (p : Fin 1024) (q : Fin 256), y = ix2 p q := ⟨y 0, y 1, eq_ix2 y⟩
  have hr : 1024 * t.val + p.val < 4096 := by
    have := t.isLt; have hN : cfg0.N = 4 := N_0; have := p.isLt; omega
  rw [View.read_apply]
  show k0_pay3 (F := Ideal) (iblk m c 0 t) (iblk m c 1 t) (k0_pay1 (V m c main_arg2)) (iblk m c 3 t) (k0_pay2 (V m c main_arg4)) (iblk m c 5 t) (ix2 p q)
    = result m c (((cfg0.win 6).blk t).view.emb (ix2 p q))
  refine (Payload.pay3_apply (iblk m c 0 t) (iblk m c 1 t) (k0_pay1 (V m c main_arg2)) (iblk m c 3 t)
    (k0_pay2 (V m c main_arg4)) (iblk m c 5 t) p q).trans ?_
  rw [out_emb t p q hr, Payload.pay1_eq, Payload.pay2_eq, V_main_arg2, V_main_arg4]
  show _ = rowOut _ _ _ _ _ _ q
  simp only [x_blk m c t _ _ hr, e_blk m c t _ _ hr, b1_blk, b2_blk]

/-- An index of the result array is in point `t`'s block iff each coordinate is in the block's range. -/
theorem mem_blk (t : Fin cfg0.N) (i : S4096x256.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v2).slice (win0_6.rect t)).set ↔ _
  rw [View.set_slice_whole, Rect.mem_set_unit]
  exact Iff.rfl

/-- The four blocks tile the result array: row `r` lies in the block of point `r / 1024`. -/
theorem cover (i : S4096x256.Idx) : ∃ t : Fin cfg0.N, (cfg0.win 6).flush t = true ∧ i ∈ ((cfg0.win 6).blk t).view.set := by
  have hN : cfg0.N = 4 := N_0
  have hi0 : (i 0).val < 4096 := (i 0).isLt
  have hi1 : (i 1).val < 256 := (i 1).isLt
  have ht : (i 0).val / 1024 < cfg0.N := by omega
  obtain ⟨-, -, -, -, -, -, -, -, -, -, -, -, e0, e1⟩ := idx_facts ⟨(i 0).val / 1024, ht⟩
  refine ⟨⟨(i 0).val / 1024, ht⟩, flush0_6 _, ?_⟩
  rw [mem_blk]
  intro a
  match a with
  | ⟨0, _⟩ =>
    show win0_6.index ⟨(i 0).val / 1024, ht⟩ (0 : Fin 2) * 1024 ≤ (i 0).val
      ∧ (i 0).val < win0_6.index ⟨(i 0).val / 1024, ht⟩ (0 : Fin 2) * 1024 + 1024
    rw [e0]; dsimp only; omega
  | ⟨1, _⟩ =>
    show win0_6.index ⟨(i 0).val / 1024, ht⟩ (1 : Fin 2) * 256 ≤ (i 1).val
      ∧ (i 1).val < win0_6.index ⟨(i 0).val / 1024, ht⟩ (1 : Fin 2) * 256 + 256
    rw [e1]; omega

/-- So the result array ends holding `G` of the argument arrays. -/
theorem final (c : Dev nD) : (dats m 0 c).arrAt 6 cfg0.N = result m c :=
  (dats m 0 c).arrAt_eq_of_cover 6 (result m c) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end

end Cert.KernelIdeal.KValue

end
-- ==== Proof.lean ====
/-
  A two-layer network with a softplus output, computed two ways, gives the same numbers.

  Both programs take a data array `x` (4096 × 256), a noise array `eps` (4096 × 16), weights `W1` (272 × 1024) and
  `W2` (1024 × 256) and biases `b1`, `b2`, and return, for every row `r` and output `q`,

      softplus (∑ⱼ max (∑ₖ [x | eps]ᵣₖ · W1ₖⱼ + b1ⱼ) 0 · W2ⱼq + b2q),   softplus o = max o 0 + log1p (exp (-|o|)).

  The reference does this on whole arrays. The kernel does it block by block — 1024 rows per grid point — keeps
  its own copy of the weights, made at the first point, for all four points, and feeds its matrix products narrower
  floats, which on the extended reals are the same numbers. On the extended reals both results are the function `G` of
  Proof/Spec.lean: the reference's by reading its operations one at a time (Proof/RefIsG.lean), the kernel's by reading
  what each grid point writes back and tiling the result with the four blocks (Proof/Pieces.lean, Proof/PayloadAt.lean,
  Proof/KernelValue.lean). No law used needs the inputs to be finite: sums and products on the extended reals may be
  taken in any order, and nothing is distributed or cancelled.

  The idealized kernel is the kernel's own text read on the extended reals — nothing was rewritten — so the
  idealization claim is trivially true. The three programs' runs terminate without a fault and leave their
  arguments unchanged.
-/
import proofs.«177544_g9337258901604_cont_9to1_m_111_11_alg».proof.Defs
import proofs.«177544_g9337258901604_cont_9to1_m_111_11_alg».proof.Proof.Gen.Kernel
import proofs.«177544_g9337258901604_cont_9to1_m_111_11_alg».proof.Proof.Gen.Kernel.Frame
import proofs.«177544_g9337258901604_cont_9to1_m_111_11_alg».proof.Proof.Gen.KernelIdeal
import proofs.«177544_g9337258901604_cont_9to1_m_111_11_alg».proof.Proof.Gen.KernelIdeal.Frame
import proofs.«177544_g9337258901604_cont_9to1_m_111_11_alg».proof.Proof.Gen.KernelIdeal.Value
import proofs.«177544_g9337258901604_cont_9to1_m_111_11_alg».proof.Proof.Gen.ReferenceIdeal
import proofs.«177544_g9337258901604_cont_9to1_m_111_11_alg».proof.Proof.Gen.ReferenceIdeal.Run
import proofs.«177544_g9337258901604_cont_9to1_m_111_11_alg».proof.Proof.Gen.ReferenceIdeal.Read
import proofs.«177544_g9337258901604_cont_9to1_m_111_11_alg».proof.Proof.Gen.Pre_finite_inputs
import proofs.«177544_g9337258901604_cont_9to1_m_111_11_alg».proof.Proof.Spec
import proofs.«177544_g9337258901604_cont_9to1_m_111_11_alg».proof.Proof.RefIsG
import proofs.«177544_g9337258901604_cont_9to1_m_111_11_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- The kernel read on the extended reals runs and leaves its arguments unchanged. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run, the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the six arguments both programs end with `G` of those arguments in their result
    arrays: the kernel by its blocks, the reference by its operations. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
